-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x64 .f32) (main_arg1 : IVec S2x1250000 32) (main_arg2 : FVec F S64x1 .f32) (main_arg3 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x1 .f32 := Host.absf main_arg2
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x1 : Shape := ⟨2, ![1, 1]⟩
abbrev S5000x64 : Shape := ⟨2, ![5000, 64]⟩
abbrev S5000x1 : Shape := ⟨2, ![5000, 1]⟩

abbrev nBuf : Space → Nat
  | .hbm => 31
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x1, .f32⟩
  | .hbm, ⟨3, _⟩ => ⟨S1, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S100000x1, .f32⟩
  | .hbm, ⟨28, _⟩ => ⟨S1x1, .f32⟩
  | .hbm, ⟨29, _⟩ => ⟨S100000x1, .f32⟩
  | .hbm, ⟨30, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x1, .f32⟩
  | .local _ .vmem, ⟨5, _⟩ => ⟨S1x1, .f32⟩
  | .local _ .vmem, ⟨6, _⟩ => ⟨S5000x1, .f32⟩
  | .local _ .vmem, ⟨7, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x1, .f32⟩
  | .hbm, ⟨3, _⟩ => ⟨S1, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x1, .f32⟩
  | .hbm, ⟨34, _⟩ => ⟨S1x1, .f32⟩
  | .hbm, ⟨35, _⟩ => ⟨S100000x1, .f32⟩
  | .hbm, ⟨36, _⟩ => ⟨S100000x1, .f32⟩
  | .hbm, ⟨37, _⟩ => ⟨S100000x1, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x1_S100000x1_1_0_0_1_n_n_wf : DotDims.WF S100000x64 S64x1 S100000x1 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Score.lean ====
/-
  The score of a node, as one function of the aggregated features, the in-degrees, the weights and the bias.

  For node r with aggregated feature row A[r, ·] (64 entries), in-degree D[r], weight column W[·, 0] and bias b[0]:

      score r = logistic ( Σ_k ( A[r, k] / max(D[r], 1) ) · W[k, 0]  +  b[0] ),

  where logistic z = 1 / (1 + exp(−z)) on the extended reals. The constant one is kept as the word it is written with
  (the same word in both programs), except inside the logistic, where its value 1 is used.
-/
import Idealize.ShloMosaic.Lib.ValueIdx
import Idealize.ShloMosaic.Lib.IdealHost
import Idealize.ShloMosaic.Lib.Pipeline.Value
import Idealize.ShloMosaic.PureOps.Ideal.Laws

noncomputable section

namespace Cert.Score

open Idealize.ShloMosaic Idealize.ShloMosaic.ValueIdx

/-- The lower bound the in-degree is clamped at: the word of 1.0. -/
abbrev oneWord : EReal := Ideal.ofBits .f32 0x3F800000#32

/-- The value under the logistic: the degree-normalised row of A against the weight column, plus the bias. -/
def logit (A : (⟨2, ![100000, 64]⟩ : Shape).Idx → EReal) (d : EReal)
    (W : (⟨2, ![64, 1]⟩ : Shape).Idx → EReal) (b : EReal) (r : Fin 100000) : EReal :=
  (∑ k : Fin 64, Ideal.div (A (ix2 r k)) (max d oneWord) * W (ix2 k (0 : Fin 1))) + b

/-- Node r's score. -/
def score (A : (⟨2, ![100000, 64]⟩ : Shape).Idx → EReal) (D : (⟨1, ![100000]⟩ : Shape).Idx → EReal)
    (W : (⟨2, ![64, 1]⟩ : Shape).Idx → EReal) (b : (⟨1, ![1]⟩ : Shape).Idx → EReal) (r : Fin 100000) : EReal :=
  Ideal.logistic (logit A (D (ix1 r)) W (b (ix1 (0 : Fin 1))) r)

/-- All the scores, as an array over the nodes. -/
def scores (A : (⟨2, ![100000, 64]⟩ : Shape).Idx → EReal) (D : (⟨1, ![100000]⟩ : Shape).Idx → EReal)
    (W : (⟨2, ![64, 1]⟩ : Shape).Idx → EReal) (b : (⟨1, ![1]⟩ : Shape).Idx → EReal) :
    (⟨1, ![100000]⟩ : Shape).Idx → EReal :=
  fun i => score A D W b (i 0)

theorem scores_ix1 (A : (⟨2, ![100000, 64]⟩ : Shape).Idx → EReal) (D : (⟨1, ![100000]⟩ : Shape).Idx → EReal)
    (W : (⟨2, ![64, 1]⟩ : Shape).Idx → EReal) (b : (⟨1, ![1]⟩ : Shape).Idx → EReal) (r : Fin 100000) :
    scores A D W b (ix1 r) = score A D W b r := rfl

/-- The scores as a column [100000, 1], from degrees given as a column and the bias as a 1×1 array: what the kernel's
    blocks tile. -/
def colScores (A : (⟨2, ![100000, 64]⟩ : Shape).Idx → EReal) (D2 : (⟨2, ![100000, 1]⟩ : Shape).Idx → EReal)
    (W : (⟨2, ![64, 1]⟩ : Shape).Idx → EReal) (b2 : (⟨2, ![1, 1]⟩ : Shape).Idx → EReal) :
    (⟨2, ![100000, 1]⟩ : Shape).Idx → EReal :=
  fun i => Ideal.logistic (logit A (D2 (ix2 (i 0) (0 : Fin 1))) W (b2 (ix2 (0 : Fin 1) (0 : Fin 1))) (i 0))

/-- The column of scores of the reshaped degrees and bias, reshaped to a vector, is the array of scores: a reshape
    between [100000] and [100000, 1], or [1] and [1, 1], keeps the row-major position. -/
theorem reshape_colScores (A : (⟨2, ![100000, 64]⟩ : Shape).Idx → EReal) (D : (⟨1, ![100000]⟩ : Shape).Idx → EReal)
    (W : (⟨2, ![64, 1]⟩ : Shape).Idx → EReal) (b : (⟨1, ![1]⟩ : Shape).Idx → EReal)
    (hD : (⟨1, ![100000]⟩ : Shape).ShapeCasts ⟨2, ![100000, 1]⟩) (hb : (⟨1, ![1]⟩ : Shape).ShapeCasts ⟨2, ![1, 1]⟩)
    (ho : (⟨2, ![100000, 1]⟩ : Shape).ShapeCasts ⟨1, ![100000]⟩) :
    shapeCast ⟨1, ![100000]⟩ (colScores A (shapeCast ⟨2, ![100000, 1]⟩ D hD) W (shapeCast ⟨2, ![1, 1]⟩ b hb)) ho = scores A D W b := by
  funext i
  obtain ⟨r, rfl⟩ : ∃ r : Fin 100000, i = ix1 r := ⟨i 0, eq_ix1 i⟩
  rw [shapeCast_apply _ ho (ix1 r) (ix2 r (0 : Fin 1))
    (by rw [Shape.rowMajor_val_two, Shape.rowMajor_val_one]; show r.val * 1 + 0 = r.val; omega)]
  unfold colScores
  rw [shapeCast_apply D hD (ix2 r (0 : Fin 1)) (ix1 r)
    (by rw [Shape.rowMajor_val_two, Shape.rowMajor_val_one]; show r.val = r.val * 1 + 0; omega),
    shapeCast_apply b hb (ix2 (0 : Fin 1) (0 : Fin 1)) (ix1 (0 : Fin 1))
    (by rw [Shape.rowMajor_val_two, Shape.rowMajor_val_one]; rfl)]
  rfl

/-- The logistic written out with the word of 1.0 for its two ones. -/
theorem logistic_words (z : EReal) : Ideal.div oneWord (oneWord + Ideal.exp (-z)) = Ideal.logistic z := by
  unfold oneWord
  rw [Ideal.ofBits_one_f32]
  rfl

end Cert.Score

end
-- ==== Proof.RefScore.lean ====
/-
  The reference computes the scores.

  Read one operation at a time, entry r of the reference's result is
      1 / (1 + exp(−( Σ_k (A[r,k] / max(D[r], 1)) · W[k,0] + b[0] ))),
  with A the scatter-added feature rows and D the scatter-added ones: the logistic of the logit, that is, the score.
-/
import proofs.«180631_j90537910600316_1_alg».proof.Proof.Gen.ReferenceIdeal.Read
import proofs.«180631_j90537910600316_1_alg».proof.Proof.Score

noncomputable section

namespace Cert.RefScore

open Idealize.ShloMosaic Idealize.ShloMosaic.ValueIdx Cert.ReferenceIdeal Cert.ReferenceIdeal.Read Cert.Score

theorem lidx_eq (r : Fin 100000) (k : Fin 64) : lidx_main_v23 (idx_main_v33 (ix1 r)) k = ix2 r k :=
  funext fun a => Fin.ext (by
    match a with
    | ⟨0, _⟩ => exact Nat.div_one _
    | ⟨1, _⟩ => rfl)

theorem ridx_eq (r : Fin 100000) (k : Fin 64) : ridx_main_v23 (idx_main_v33 (ix1 r)) k = ix2 k (0 : Fin 1) :=
  funext fun a => Fin.ext (by
    match a with
    | ⟨0, _⟩ => rfl
    | ⟨1, _⟩ => rfl)

theorem didx_eq (r : Fin 100000) (k : Fin 64) : idx_main_v20 (idx_main_v21 (ix2 r k)) = ix1 r :=
  funext fun a => Fin.ext (by
    match a with
    | ⟨0, _⟩ => rfl)

theorem bidx_eq (r : Fin 100000) : idx_main_v24 (idx_main_v25 (idx_main_v33 (ix1 r))) = ix1 (0 : Fin 1) :=
  funext fun a => Fin.ext (by
    match a with
    | ⟨0, _⟩ => rfl)

/-- The reference's result is the array of scores of the scatter-added rows and degrees. -/
theorem ref_scores (x0 : (⟨S100000x64, .f32⟩ : BufTy).Contents (Elt Ideal)) (x1 : (⟨S2x1250000, .i32⟩ : BufTy).Contents (Elt Ideal))
    (x2 : (⟨S64x1, .f32⟩ : BufTy).Contents (Elt Ideal)) (x3 : (⟨S1, .f32⟩ : BufTy).Contents (Elt Ideal)) :
    val_main_v33 (F := Ideal) x0 x1 x2 x3 = scores (val_main_v13 (F := Ideal) x0 x1) (val_main_v17 (F := Ideal) x1) x2 x3 := by
  funext i
  obtain ⟨r, rfl⟩ : ∃ r : Fin 100000, i = ix1 r := ⟨i 0, eq_ix1 i⟩
  rw [scores_ix1, val_main_v33_apply, val_main_v32_apply, val_main_v31_apply, val_main_cst_5_apply, val_main_v30_apply,
    val_main_v29_apply, val_main_cst_4_apply, val_main_v28_apply, val_main_v27_apply, val_main_v26_apply, val_main_v23_apply,
    val_main_v25_apply, val_main_v24_apply, bidx_eq]
  unfold score
  rw [← logistic_words]
  simp only [Ideal.hostDivf_def, Ideal.addf_def, Ideal.hostUnary_exp_def, Ideal.hostNegf_def, Ideal.negf_def, Ideal.ofBits_def]
  refine congrArg (fun z => Ideal.div oneWord (oneWord + Ideal.exp (-z))) ?_
  unfold logit
  refine congrArg (· + x3 (ix1 (0 : Fin 1))) (Finset.sum_congr rfl fun k _ => ?_)
  rw [lidx_eq, ridx_eq, val_main_v22_apply, val_main_v21_apply, val_main_v20_apply, val_main_v19_apply,
    val_main_v18_apply, val_main_cst_3_apply, didx_eq]
  rfl

end Cert.RefScore

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.BlockScore.lean ====
/-
  What the kernel body computes for one block of 5000 nodes, entry by entry.

  From a block's aggregated rows a[p, ·], its degrees d[p, 0], the weights w[·, 0] and the bias c[0, 0], row p of the stored
  block is
      logistic ( Σ_k ( a[p, k] / max(d[p, 0], 1) ) · w[k, 0]  +  c[0, 0] ):
  the division and the clamp are entrywise, the change of float format is the identity on the extended reals, the product
  into the zero accumulator is the plain sum over the 64 features, and the bias is one entry broadcast down the column.
-/
import proofs.«180631_j90537910600316_1_alg».proof.Proof.Gen.KernelIdeal.Skeleton
import proofs.«180631_j90537910600316_1_alg».proof.Proof.Score
import proofs.«180631_j90537910600316_1_alg».proof.Proof.LibDotRows
import proofs.«180631_j90537910600316_1_alg».proof.Proof.LibColBroadcast
import Idealize.ShloMosaic.Lib.Pipeline.Value

noncomputable section

namespace Cert.BlockScore

open Idealize.ShloMosaic Idealize.ShloMosaic.ValueIdx Cert.KernelIdeal Cert.KernelIdeal.Gen Cert.Score

/-- The body's product is the plain 5000×64 by 64×1 product: entry (p, 0) is the sum over the 64 features. -/
theorem product_apply (X : FVec Ideal S5000x64 .bf16) (Wt : FVec Ideal S64x1 .bf16) (p : Fin 5000) :
    matmul (F := Ideal) dot_S5000x64_S64x1_S5000x1_1_0_0_1_n_n none X Wt (constant S5000x1 .f32 0x00000000#32) (ix2 p (0 : Fin 1))
      = ∑ k : Fin 64, X (ix2 p k) * Wt (ix2 k (0 : Fin 1)) :=
  Cert.Lib.DotRows.matmul_plain_apply (M := 5000) (K := 64) (N := 1) X Wt p 0

/-- A one-entry array broadcast down a column of 5000 reads that entry everywhere. -/
theorem bias_apply (v : S1x1.Idx → EReal) (h : S1x1.Broadcasts S5000x1) (p : Fin 5000) :
    broadcastTo S5000x1 v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- Row p of the block the body stores. -/
theorem pay_apply (v0 : Vec Ideal S5000x1 .f32) (v4 : Vec Ideal S5000x64 .f32) (v9 : Vec Ideal S64x1 .f32)
    (v12 : Vec Ideal S1x1 .f32) (p : Fin 5000) :
    k0_pay1 (F := Ideal) v0 v4 v9 v12 (ix2 p (0 : Fin 1))
      = Ideal.logistic ((∑ k : Fin 64, Ideal.div (v4 (ix2 p k)) (max (v0 (ix2 p (0 : Fin 1))) oneWord) * v9 (ix2 k (0 : Fin 1)))
          + v12 (ix2 (0 : Fin 1) (0 : Fin 1))) := by
  unfold k0_pay1
  refine congrArg Ideal.logistic (congrArg₂ (· + ·) ((product_apply _ _ p).trans ?_) ?_)
  · refine Finset.sum_congr rfl fun k _ => ?_
    show Ideal.div (shapeCast S5000x64 v4 shapeCasts_S5000x64_S5000x64 (ix2 p k))
        (broadcastTo S5000x64 (maximumf (F := Ideal) (shapeCast S5000x1 v0 shapeCasts_S5000x1_S5000x1) (broadcast S5000x1 (Scalar.ofBits (F := Ideal) .f32 0x3F800000#32))) broadcasts_S5000x1_S5000x64 (ix2 p k))
        * v9 (ix2 k (0 : Fin 1)) = _
    rw [shapeCast_self, Cert.LibColBroadcast.broadcastTo_a1_ab_apply, shapeCast_self]
    rfl
  · show broadcastTo S5000x1 (shapeCast S1x1 v12 shapeCasts_S1x1_S1x1) broadcasts_S1x1_S5000x1 (ix2 p (0 : Fin 1)) = _
    rw [shapeCast_self]
    exact bias_apply v12 _ p

/-- A stored block's entry as an entry of the column of scores: if row y₀ of the block's inputs is row i₀ of the arrays
    (the aggregated rows and the degree agree there, the weights and the bias are the same), the body's value at y is the
    score column at i. -/
theorem block_entry (x0 : Vec Ideal S5000x64 .f32) (x1 : Vec Ideal S5000x1 .f32) (x2 : Vec Ideal S64x1 .f32) (x3 : Vec Ideal S1x1 .f32)
    (A : S100000x64.Idx → EReal) (D2 : S100000x1.Idx → EReal) (W : S64x1.Idx → EReal) (b2 : S1x1.Idx → EReal)
    (y : S5000x1.Idx) (i : S100000x1.Idx)
    (hA : ∀ k : Fin 64, x0 (ix2 (y 0) k) = A (ix2 (i 0) k))
    (hD : x1 (ix2 (y 0) (0 : Fin 1)) = D2 (ix2 (i 0) (0 : Fin 1)))
    (hW : ∀ k : Fin 64, x2 (ix2 k (0 : Fin 1)) = W (ix2 k (0 : Fin 1)))
    (hb : x3 (ix2 (0 : Fin 1) (0 : Fin 1)) = b2 (ix2 (0 : Fin 1) (0 : Fin 1))) :
    k0_pay1 (F := Ideal) x1 x0 x2 x3 y = colScores A D2 W b2 i := by
  obtain ⟨p, q, rfl⟩ : ∃ (p : Fin 5000) (q : Fin 1), y = ix2 p q := ⟨y 0, y 1, eq_ix2 y⟩
  obtain rfl : q = 0 := Subsingleton.elim _ _
  rw [pay_apply]
  unfold colScores logit
  refine congrArg Ideal.logistic ?_
  have hA' : ∀ k : Fin 64, x0 (ix2 p k) = A (ix2 (i 0) k) := hA
  have hD' : x1 (ix2 p (0 : Fin 1)) = D2 (ix2 (i 0) (0 : Fin 1)) := hD
  rw [hD', hb]
  refine congrArg (· + b2 (ix2 (0 : Fin 1) (0 : Fin 1))) (Finset.sum_congr rfl fun k _ => ?_)
  rw [hA' k, hW k]

end Cert.BlockScore

end
-- ==== Proof.BlockReads.lean ====
/-
  The geometry of the row blocks.

  Grid point t (t = 0 … 19) works on rows 5000·t … 5000·t + 4999: its block of the aggregated features is those rows of the
  [100000, 64] array, its block of degrees those rows of the [100000, 1] column, its block of the result those rows of
  the result column; the weights' block and the bias's block are the whole arrays at every point. The twenty row blocks
  tile the 100000 rows: row r lies in the block of point r / 5000. Everything here is about positions only — the arrays
  are arbitrary.
-/
import proofs.«180631_j90537910600316_1_alg».proof.Proof.Gen.KernelIdeal.Frame
import Idealize.ShloMosaic.Lib.Pipeline.Value
import Idealize.ShloMosaic.PureOps.Ideal

noncomputable section

namespace Cert.BlockReads

open Cert.KernelIdeal Cert.KernelIdeal.Gen Idealize.ShloMosaic Idealize.ShloMosaic.TcCoe Idealize.SL.Sem
open Idealize.ShloMosaic.Pipeline (Dat)

/-- The block indices of the five windows at grid point t: the row blocks move with t, the weights and the bias stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (y₀, y₁) of point t's block of an array X of aggregated rows is X[5000·t + y₀, y₁]. -/
theorem rows_read (X : S100000x64.Idx → EReal) (t : Fin cfg0.N) (y : S5000x64.Idx) (i : S100000x64.Idx)
    (h0 : (i 0).val = t.val * 5000 + (y 0).val) (h1 : (i 1).val = (y 1).val) :
    ((cfg0.win 0).blk t).view.read (Elt Ideal) X y = X i := by
  obtain ⟨e0, e1, -⟩ := block_indices t
  rw [View.read_apply]
  show X _ = X _
  refine congrArg X (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Entry (y₀, y₁) of point t's block of a degree column X is X[5000·t + y₀, y₁]. -/
theorem degrees_read (X : S100000x1.Idx → EReal) (t : Fin cfg0.N) (y : S5000x1.Idx) (i : S100000x1.Idx)
    (h0 : (i 0).val = t.val * 5000 + (y 0).val) (h1 : (i 1).val = (y 1).val) :
    ((cfg0.win 1).blk t).view.read (Elt Ideal) X y = X i := by
  obtain ⟨-, -, e0, e1, -⟩ := block_indices t
  rw [View.read_apply]
  show X _ = X _
  refine congrArg X (funext fun a => Fin.ext ?_)
  match a with
  | ⟨0, _⟩ => show win0_1.index t (0 : Fin 2) * 5000 + 1 * (y 0).val = (i 0).val; omega
  | ⟨1, _⟩ => show win0_1.index t (1 : Fin 2) * 1 + 1 * (y 1).val = (i 1).val; omega

/-- The weights' block at every point is the whole array. -/
theorem weights_read (X : S64x1.Idx → EReal) (t : Fin cfg0.N) (y : S64x1.Idx) :
    ((cfg0.win 2).blk t).view.read (Elt Ideal) X y = X y := by
  obtain ⟨-, -, -, -, e0, e1, -⟩ := block_indices t
  rw [View.read_apply]
  show X _ = X _
  refine congrArg X (funext fun a => Fin.ext ?_)
  match a with
  | ⟨0, _⟩ => show win0_2.index t (0 : Fin 2) * 64 + 1 * (y 0).val = (y 0).val; omega
  | ⟨1, _⟩ => show win0_2.index t (1 : Fin 2) * 1 + 1 * (y 1).val = (y 1).val; omega

/-- The bias's block at every point is the whole 1×1 array. -/
theorem bias_read (X : S1x1.Idx → EReal) (t : Fin cfg0.N) (y : S1x1.Idx) :
    ((cfg0.win 3).blk t).view.read (Elt Ideal) X y = X y := by
  obtain ⟨-, -, -, -, -, -, e0, e1, -⟩ := block_indices t
  rw [View.read_apply]
  show X _ = X _
  refine congrArg X (funext fun a => Fin.ext ?_)
  match a with
  | ⟨0, _⟩ => show win0_3.index t (0 : Fin 2) * 1 + 1 * (y 0).val = (y 0).val; omega
  | ⟨1, _⟩ => show win0_3.index t (1 : Fin 2) * 1 + 1 * (y 1).val = (y 1).val; omega

/-- A block X of 5000 result rows is point t's block of a result column G as soon as X[y] = G[5000·t + y₀, y₁] for every y. -/
theorem result_block (X : S5000x1.Idx → EReal) (G : S100000x1.Idx → EReal) (t : Fin cfg0.N)
    (h : ∀ (y : S5000x1.Idx) (i : S100000x1.Idx), (i 0).val = t.val * 5000 + (y 0).val → (i 1).val = (y 1).val → X y = G i) :
    (cfg0.win 4).cut (grid0.coords t) X = ((cfg0.win 4).blk t).view.read (Elt Ideal) G := by
  obtain ⟨-, -, -, -, -, -, -, -, e0, e1⟩ := block_indices t
  funext j
  rw [View.read_apply]
  show X _ = G _
  refine h _ _ ?_ ?_
  · show win0_4.index t (0 : Fin 2) * 5000 + 1 * (j 0).val = t.val * 5000 + (j 0).val; omega
  · show win0_4.index t (1 : Fin 2) * 1 + 1 * (j 1).val = (j 1).val; omega

/-- An index of the result column is in point t's block iff each coordinate is in the block's range on its axis. -/
theorem mem_block (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v20).slice (win0_4.rect t)).set ↔ _
  rw [View.set_slice_whole, Rect.mem_set_unit]
  exact Iff.rfl

/-- Every row of the result column lies in some point's block: row r in the block of point r / 5000. -/
theorem covered (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hN : cfg0.N = 20 := N_0
  have ht : (i 0).val / 5000 < cfg0.N := by rw [hN]; omega
  obtain ⟨-, -, -, -, -, -, -, -, e0, e1⟩ := block_indices ⟨(i 0).val / 5000, ht⟩
  refine ⟨⟨(i 0).val / 5000, ht⟩, flush0_4 _, ?_⟩
  rw [mem_block]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ (1 : Fin 2) * 1 ≤ (i 1).val
      ∧ (i 1).val < win0_4.index ⟨(i 0).val / 5000, ht⟩ (1 : Fin 2) * 1 + 1
    omega

end Cert.BlockReads

end
-- ==== Proof.ColumnScore.lean ====
/-
  From the blocks to the whole column of scores.

  What grid point t writes back is the restriction of ONE function of the arrays the region finds — the column of scores
  of the aggregated rows, the degree column, the weights and the bias — to rows 5000·t … 5000·t + 4999: row y of the stored
  block is computed from row y of the point's blocks, which are rows 5000·t + y of the arrays. The twenty row blocks tile
  the column, so after the last point the result column is the column of scores.
-/
import proofs.«180631_j90537910600316_1_alg».proof.Proof.Gen.KernelIdeal.Frame
import proofs.«180631_j90537910600316_1_alg».proof.Proof.BlockScore
import proofs.«180631_j90537910600316_1_alg».proof.Proof.BlockReads
import Idealize.ShloMosaic.Lib.Pipeline.Value

noncomputable section

namespace Cert.ColumnScore

open Cert.KernelIdeal Cert.KernelIdeal.Gen Idealize.ShloMosaic Idealize.ShloMosaic.TcCoe Idealize.SL.Sem
open Idealize.ShloMosaic.ValueIdx Cert.Score Cert.BlockReads
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The column of scores of the arrays as the region finds them: the aggregated rows, the degree column, the weights and
    the 1×1 bias are the arrays of the first four windows. -/
abbrev column (c : Dev nD) : S100000x1.Idx → EReal :=
  colScores (V m c (Pipeline.arrRef spec0 0)) (V m c (Pipeline.arrRef spec0 1)) (V m c (Pipeline.arrRef spec0 2))
    (V m c (Pipeline.arrRef spec0 3))

/-- Point t's block of aggregated rows holds rows 5000·t … of the array the region finds. -/
theorem rows_apply (c : Dev nD) (t : Fin cfg0.N) (y : S5000x64.Idx) (i : S100000x64.Idx)
    (h0 : (i 0).val = t.val * 5000 + (y 0).val) (h1 : (i 1).val = (y 1).val) :
    (iblk m c 0 t : Vec Ideal S5000x64 .f32) y = (V m c (Pipeline.arrRef spec0 0) : S100000x64.Idx → EReal) i :=
  rows_read (V m c (Pipeline.arrRef spec0 0)) t y i h0 h1

/-- Point t's block of degrees holds rows 5000·t … of the degree column the region finds. -/
theorem degrees_apply (c : Dev nD) (t : Fin cfg0.N) (y : S5000x1.Idx) (i : S100000x1.Idx)
    (h0 : (i 0).val = t.val * 5000 + (y 0).val) (h1 : (i 1).val = (y 1).val) :
    (iblk m c 1 t : Vec Ideal S5000x1 .f32) y = (V m c (Pipeline.arrRef spec0 1) : S100000x1.Idx → EReal) i :=
  degrees_read (V m c (Pipeline.arrRef spec0 1)) t y i h0 h1

/-- Every point's block of weights is the weight array the region finds. -/
theorem weights_apply (c : Dev nD) (t : Fin cfg0.N) (y : S64x1.Idx) :
    (iblk m c 2 t : Vec Ideal S64x1 .f32) y = (V m c (Pipeline.arrRef spec0 2) : S64x1.Idx → EReal) y :=
  weights_read (V m c (Pipeline.arrRef spec0 2)) t y

/-- Every point's block of the bias is the 1×1 bias array the region finds. -/
theorem bias_apply (c : Dev nD) (t : Fin cfg0.N) (y : S1x1.Idx) :
    (iblk m c 3 t : Vec Ideal S1x1 .f32) y = (V m c (Pipeline.arrRef spec0 3) : S1x1.Idx → EReal) y :=
  bias_read (V m c (Pipeline.arrRef spec0 3)) t y

/-- What point t writes back is the column of scores read through the point's block of rows. -/
theorem flushed_eq (c : Dev nD) (t : Fin cfg0.N) :
    (dats m 0 c).flushed 4 t = ((cfg0.win 4).blk t).view.read (Elt Ideal) (column m c) := by
  show (cfg0.win 4).cut (grid0.coords t) ((dats m 0 c).after 4 t) = _
  rw [after0_4]
  unfold out0_4
  rw [View.canon_unit_zero zero_offsets]
  simp only [View.ld_unit_zero (S := S5000x1) zero_offsets, View.ld_unit_zero (S := S5000x64) zero_offsets,
    View.ld_unit_zero (S := S64x1) zero_offsets, View.ld_unit_zero (S := S1x1) zero_offsets]
  exact result_block (k0_pay1 (F := Ideal) (iblk m c 1 t) (iblk m c 0 t) (iblk m c 2 t) (iblk m c 3 t)) (column m c) t
    fun y i h0 h1 =>
      Cert.BlockScore.block_entry (iblk m c 0 t) (iblk m c 1 t) (iblk m c 2 t) (iblk m c 3 t)
        (V m c (Pipeline.arrRef spec0 0)) (V m c (Pipeline.arrRef spec0 1)) (V m c (Pipeline.arrRef spec0 2))
        (V m c (Pipeline.arrRef spec0 3)) y i
        (fun k => rows_apply m c t (ix2 (y 0) k) (ix2 (i 0) k) h0 rfl)
        (degrees_apply m c t (ix2 (y 0) (0 : Fin 1)) (ix2 (i 0) (0 : Fin 1)) h0 rfl)
        (fun k => weights_apply m c t (ix2 k (0 : Fin 1)))
        (bias_apply m c t (ix2 (0 : Fin 1) (0 : Fin 1)))

/-- After the last point the result column is the column of scores. -/
theorem final (c : Dev nD) : (dats m 0 c).arrAt 4 cfg0.N = column m c :=
  (dats m 0 c).arrAt_eq_of_cover 4 (column m c) (fun t _ => flushed_eq m c t) covered

end Cert.ColumnScore

end
-- ==== Proof.KernelRun.lean ====
/-
  The kernel program's run, read: its result is the array of scores.

  Before the region the program gathers the rows of X by source node and scatter-adds them by destination node (the
  aggregated rows), scatter-adds ones by destination node (the degrees) and reshapes the degrees to a column and the bias
  to a 1×1 array; the region leaves the column of scores of these arrays in its result; the one operation after the
  region reshapes that column to a vector. A reshape keeps the row-major position, so the result is the array of scores of
  the aggregated rows, the degrees, the weights and the bias — written with the same two scatter-added arrays the reference
  program computes from the same arguments.
-/
import proofs.«180631_j90537910600316_1_alg».proof.Proof.Gen.KernelIdeal.Frame
import proofs.«180631_j90537910600316_1_alg».proof.Proof.Gen.ReferenceIdeal.Read
import proofs.«180631_j90537910600316_1_alg».proof.Proof.ColumnScore
import Idealize.ShloMosaic.Lib.Pipeline.Value
import Idealize.ShloMosaic.Lib.StableHlo.Run

noncomputable section

namespace Cert.KernelRun

open Cert.KernelIdeal Cert.KernelIdeal.Gen Idealize.ShloMosaic Idealize.ShloMosaic.TcCoe Idealize.SL.Sem
open Idealize.ShloMosaic.ValueIdx Cert.Score
open Idealize.ShloMosaic.Pipeline (Dat)

variable (m : (ℓ : Loc nD τ sig) → Buf (Elt Ideal) ℓ) (ρ : Dev nD → PrngReg)

/-- The aggregated rows: the rows of X gathered by source node and scatter-added by destination node. -/
abbrev aggregated (c : Dev nD) : S100000x64.Idx → EReal :=
  Cert.ReferenceIdeal.Read.val_main_v13 (F := Ideal) (m ((c : Thread nD τ).loc main_arg0)) (m ((c : Thread nD τ).loc main_arg1))

/-- The in-degrees: ones scatter-added by destination node. -/
abbrev degrees (c : Dev nD) : S100000.Idx → EReal :=
  Cert.ReferenceIdeal.Read.val_main_v17 (F := Ideal) (m ((c : Thread nD τ).loc main_arg1))

/-- The region finds the aggregated rows in its first window's array. -/
theorem entry_rows (c : Dev nD) :
    (V m c (Pipeline.arrRef spec0 0) : S100000x64.Idx → EReal) = aggregated m c := by
  show StableHlo.after hostOps0 (fun b => m (c, b)) (Proc.devRef .tc main_v13) = _
  after_results
  rfl

/-- The region finds the degrees, reshaped to a column, in its second window's array. -/
theorem entry_degrees (c : Dev nD) :
    (V m c (Pipeline.arrRef spec0 1) : S100000x1.Idx → EReal)
      = shapeCast S100000x1 (degrees m c) shapeCasts_S100000_S100000x1 := by
  show StableHlo.after hostOps0 (fun b => m (c, b)) (Proc.devRef .tc main_v18) = _
  after_results
  rfl

/-- The region finds the weights as launched in its third window's array. -/
theorem entry_weights (c : Dev nD) :
    (V m c (Pipeline.arrRef spec0 2) : S64x1.Idx → EReal) = m ((c : Thread nD τ).loc main_arg2) :=
  V_main_arg2 m c

/-- The region finds the bias, reshaped to a 1×1 array, in its fourth window's array. -/
theorem entry_bias (c : Dev nD) :
    (V m c (Pipeline.arrRef spec0 3) : S1x1.Idx → EReal) = shapeCast S1x1 (m ((c : Thread nD τ).loc main_arg3)) shapeCasts_S1_S1x1 := by
  show StableHlo.after hostOps0 (fun b => m (c, b)) (Proc.devRef .tc main_v19) = _
  after_results
  rfl

/-- The program's result is the region's result column reshaped to a vector. -/
theorem tail_result (c : Dev nD) :
    Pipeline.afterTail₀ cfgs (dats m) 0 (V0 m) [hostOps1] c main_v21
      = shapeCast S100000 ((dats m 0 c).arrAt 4 cfg0.N) shapeCasts_S100000x1_S100000 := by
  unfold Pipeline.afterTail₀
  show StableHlo.after hostOps1 _ (Proc.devRef .tc main_v21) = _
  after_results
  exact congrArg (fun X => shapeCast S100000 X shapeCasts_S100000x1_S100000)
    (Pipeline.withArrays_arr spec0 launch0.win.arr_inj c (V0 m c) (fun w => (dats m 0 c).arrAt w cfg0.N) 4)

/-- The program's result is the array of scores of the aggregated rows, the degrees, the weights and the bias. -/
theorem result_scores (c : Dev nD) :
    Pipeline.afterTail₀ cfgs (dats m) 0 (V0 m) [hostOps1] c main_v21
      = scores (aggregated m c) (degrees m c) (m ((c : Thread nD τ).loc main_arg2)) (m ((c : Thread nD τ).loc main_arg3)) := by
  rw [tail_result, Cert.ColumnScore.final]
  show shapeCast S100000 (colScores (V m c (Pipeline.arrRef spec0 0)) (V m c (Pipeline.arrRef spec0 1))
    (V m c (Pipeline.arrRef spec0 2)) (V m c (Pipeline.arrRef spec0 3))) shapeCasts_S100000x1_S100000 = _
  rw [entry_rows, entry_degrees, entry_weights, entry_bias]
  exact reshape_colScores _ _ _ _ _ _ _

/-- Every weakly fair execution of the kernel program terminates with its result at the array of scores and its arguments
    unchanged. -/
theorem run : θ_run defs (onTc (τ := τ) (main (F := Ideal))) ⟨m, fun _ => 0, ρ⟩ fun r => ∀ c : Dev nD,
      r.2.mem ((c.tc : Thread nD τ).loc main_v21)
        = scores (aggregated m c) (degrees m c) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (result_scores m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelRun

end
-- ==== Proof.lean ====
/-
  A node's score: kernel and reference agree on the extended reals.

  Both programs first aggregate: the rows of X gathered by source node are scatter-added by destination node (A), and
  ones are scatter-added by destination node (the in-degrees D) — the same operations on the same arguments in both.
  The reference then computes, for every node r,
      1 / (1 + exp(−( Σ_k (A[r,k] / max(D[r], 1)) · W[k,0] + b[0] ))),
  on whole arrays; the kernel computes logistic( Σ_k (A[r,k] / max(D[r], 1)) · W[k,0] + b[0] ) in twenty blocks of 5000
  nodes, rounding to a shorter float format on the way into the product, which is the identity on the extended reals.
  The logistic IS 1 / (1 + exp(−z)) there, a product into a zero accumulator is the plain sum, and the blocks tile the
  nodes, so both results are one function of the arguments (Proof/Score.lean). No law that needs finite inputs is used:
  the two sides are the same expression entry by entry.

  The three frames: the two kernel programs' frames are the generated ones; the reference has no kernel and its frame is
  its run with the result dropped. The idealization rewrote nothing, so there is nothing to preserve.
-/
import proofs.«180631_j90537910600316_1_alg».proof.Defs
import proofs.«180631_j90537910600316_1_alg».proof.Proof.Gen.Kernel
import proofs.«180631_j90537910600316_1_alg».proof.Proof.Gen.Kernel.Skeleton
import proofs.«180631_j90537910600316_1_alg».proof.Proof.Gen.Kernel.Launch
import proofs.«180631_j90537910600316_1_alg».proof.Proof.Gen.Kernel.Points
import proofs.«180631_j90537910600316_1_alg».proof.Proof.Gen.Kernel.Frame
import proofs.«180631_j90537910600316_1_alg».proof.Proof.Gen.KernelIdeal
import proofs.«180631_j90537910600316_1_alg».proof.Proof.Gen.KernelIdeal.Skeleton
import proofs.«180631_j90537910600316_1_alg».proof.Proof.Gen.KernelIdeal.Launch
import proofs.«180631_j90537910600316_1_alg».proof.Proof.Gen.KernelIdeal.Points
import proofs.«180631_j90537910600316_1_alg».proof.Proof.Gen.KernelIdeal.Frame
import proofs.«180631_j90537910600316_1_alg».proof.Proof.Gen.ReferenceIdeal
import proofs.«180631_j90537910600316_1_alg».proof.Proof.Gen.Pre_finite_inputs
import proofs.«180631_j90537910600316_1_alg».proof.Proof.Gen.ReferenceIdeal.Run
import proofs.«180631_j90537910600316_1_alg».proof.Proof.Gen.ReferenceIdeal.Read
import proofs.«180631_j90537910600316_1_alg».proof.Proof.RefScore
import proofs.«180631_j90537910600316_1_alg».proof.Proof.KernelRun
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the array of scores of the aggregated rows, the degrees, the weights and the bias
    of their (agreeing) arguments. -/
theorem algebraic : Cert.algebraic_KernelIdeal_ReferenceIdeal := by
  intro m ρ m' ρ' _ hagree
  refine ⟨fun c => Cert.Score.scores (Cert.KernelRun.aggregated m c) (Cert.KernelRun.degrees m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefScore.ref_scores,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
